-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S512x128 : Shape := ⟨2, ![512, 128]⟩
abbrev S512 : Shape := ⟨1, ![512]⟩
abbrev S550000 : Shape := ⟨1, ![550000]⟩
abbrev S4096 : Shape := ⟨1, ![4096]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S50000x128 .f32) (main_arg1 : FVec F S512x128 .f32) (main_arg2 : FVec F S512 .f32) (main_arg3 : IVec S550000 32) (main_arg4 : IVec S550000 32) (main_arg5 : IVec S4096 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S50000x128 : Shape := ⟨2, ![50000, 128]⟩
abbrev S512x128 : Shape := ⟨2, ![512, 128]⟩
abbrev S512 : Shape := ⟨1, ![512]⟩
abbrev S550000 : Shape := ⟨1, ![550000]⟩
abbrev S4096 : Shape := ⟨1, ![4096]⟩
abbrev S_ : Shape := ⟨0, ![]⟩
abbrev S550000x1 : Shape := ⟨2, ![550000, 1]⟩
abbrev S550000x128 : Shape := ⟨2, ![550000, 128]⟩
abbrev S50000 : Shape := ⟨1, ![50000]⟩
abbrev S4096x1 : Shape := ⟨2, ![4096, 1]⟩
abbrev S4096x128 : Shape := ⟨2, ![4096, 128]⟩
abbrev S1x512 : Shape := ⟨2, ![1, 512]⟩
abbrev S4096x512 : Shape := ⟨2, ![4096, 512]⟩
abbrev S2048x128 : Shape := ⟨2, ![2048, 128]⟩
abbrev S2048x1 : Shape := ⟨2, ![2048, 1]⟩
abbrev S2048x512 : Shape := ⟨2, ![2048, 512]⟩

abbrev nBuf : Space → Nat
  | .hbm => 62
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S512x128, .f32⟩
  | .hbm, ⟨2, _⟩ => ⟨S512, .f32⟩
  | .hbm, ⟨3, _⟩ => ⟨S550000, .i32⟩
  | .hbm, ⟨4, _⟩ => ⟨S550000, .i32⟩
  | .hbm, ⟨5, _⟩ => ⟨S4096, .i32⟩
  | .hbm, ⟨6, _⟩ => ⟨S_, .i32⟩
  | .hbm, ⟨7, _⟩ => ⟨S550000, .i32⟩
  | .hbm, ⟨8, _⟩ => ⟨S550000, .i1⟩
  | .hbm, ⟨9, _⟩ => ⟨S_, .i32⟩
  | .hbm, ⟨10, _⟩ => ⟨S550000, .i32⟩
  | .hbm, ⟨11, _⟩ => ⟨S550000, .i32⟩
  | .hbm, ⟨12, _⟩ => ⟨S550000, .i32⟩
  | .hbm, ⟨13, _⟩ => ⟨S550000x1, .i32⟩
  | .hbm, ⟨14, _⟩ => ⟨S550000x128, .f32⟩
  | .hbm, ⟨15, _⟩ => ⟨S_, .f32⟩
  | .hbm, ⟨16, _⟩ => ⟨S50000x128, .f32⟩
  | .hbm, ⟨17, _⟩ => ⟨S550000x1, .i32⟩
  | .hbm, ⟨18, _⟩ => ⟨S50000x128, .f32⟩
  | .hbm, ⟨19, _⟩ => ⟨S_, .f32⟩
  | .hbm, ⟨20, _⟩ => ⟨S550000, .f32⟩
  | .hbm, ⟨21, _⟩ => ⟨S_, .f32⟩
  | .hbm, ⟨22, _⟩ => ⟨S50000, .f32⟩
  | .hbm, ⟨23, _⟩ => ⟨S550000x1, .i32⟩
  | .hbm, ⟨24, _⟩ => ⟨S50000, .f32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S4096x128, .f32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S4096x1, .i32⟩
  | .hbm, ⟨42, _⟩ => ⟨S4096x128, .f32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S4096x1, .i32⟩
  | .hbm, ⟨51, _⟩ => ⟨S4096, .f32⟩
  | .hbm, ⟨52, _⟩ => ⟨S4096x128, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S4096x1, .f32⟩
  | .hbm, ⟨60, _⟩ => ⟨S1x512, .f32⟩
  | .hbm, ⟨61, _⟩ => ⟨S4096x512, .f32⟩
  | .local _ .vmem, ⟨0, _⟩ => ⟨S2048x128, .f32⟩
  | .local _ .vmem, ⟨1, _⟩ => ⟨S2048x128, .f32⟩
  | .local _ .vmem, ⟨2, _⟩ => ⟨S2048x1, .f32⟩
  | .local _ .vmem, ⟨3, _⟩ => ⟨S2048x1, .f32⟩
  | .local _ .vmem, ⟨4, _⟩ => ⟨S512x128, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_cst_10 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S550000 : S_.BroadcastsInDim S550000 (![] : Fin 0 → Fin S550000.rank)
  bcast_S550000_S550000x1_0 : S550000.BroadcastsInDim S550000x1 (![0] : Fin 1 → Fin S550000x1.rank)
  bcast_S_S50000x128 : S_.BroadcastsInDim S50000x128 (![] : Fin 0 → Fin S50000x128.rank)
  bcast_S_S50000 : S_.BroadcastsInDim S50000 (![] : Fin 0 → Fin S50000.rank)
  bcast_S_S4096 : S_.BroadcastsInDim S4096 (![] : Fin 0 → Fin S4096.rank)
  bcast_S4096_S4096x1_0 : S4096.BroadcastsInDim S4096x1 (![0] : Fin 1 → Fin S4096x1.rank)
  shapeCasts_S4096_S4096x1 : S4096.ShapeCasts S4096x1
  shapeCasts_S512_S1x512 : S512.ShapeCasts S1x512
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  scatter_S50000_S550000x1_S550000_n_0_0_1_wf : ScatterDims.WF S50000 S550000x1 S550000 [] [0] [0] 1
  gather_S50000x128_S4096x1_S4096x128_1_0_n_n_0_1_1128_wf : GatherDims.WF S50000x128 S4096x1 S4096x128 [1] [0] [] [0] [] 1 ![1, 128]
  gather_S50000_S4096x1_S4096_n_0_n_n_0_1_1_wf : GatherDims.WF S50000 S4096x1 S4096 [] [0] [] [0] [] 1 ![1]
  dot_S2048x128_S512x128_S2048x512_1_1_0_0_n_n_wf : DotDims.WF S2048x128 S512x128 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S4096x128.size a
  hwx0_0 : ∀ i : grid0.Coords, EltTy.bits .f32 = 32 ∨ (Rect.block (s := S4096x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S4096x1.size a
  hwx0_1 : ∀ i : grid0.Coords, EltTy.bits .f32 = 32 ∨ (Rect.block (s := S4096x1) S2048x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S4096x512.size a
  hwx0_4 : ∀ i : grid0.Coords, EltTy.bits .f32 = 32 ∨ (Rect.block (s := S4096x512) S2048x512.size (cc0_transform_4 i) (hinb0_4 i)).WholeWords (EltTy.packing .f32)

variable [Facts₀]

def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000x128_S4096x1_S4096x128_1_0_n_n_0_1_1128 : GatherDims S50000x128 S4096x1 S4096x128 where
  offsetDims := [1]
  collapsedSliceDims := [0]
  operandBatchingDims := []
  startIndicesBatchingDims := []
  startIndexMap := [0]
  indexVectorDim := 1
  sliceSizes := ![1, 128]
  wf := gather_S50000x128_S4096x1_S4096x128_1_0_n_n_0_1_1128_wf
def gather_S50000_S4096x1_S4096_n_0_n_n_0_1_1 : GatherDims S50000 S4096x1 S4096 where
  offsetDims := []
  collapsedSliceDims := [0]
  operandBatchingDims := []
  startIndicesBatchingDims := []
  startIndexMap := [0]
  indexVectorDim := 1
  sliceSizes := ![1]
  wf := gather_S50000_S4096x1_S4096_n_0_n_n_0_1_1_wf
def dot_S2048x128_S512x128_S2048x512_1_1_0_0_n_n : DotDims S2048x128 S512x128 S2048x512 where
  lhsContracting := [1]
  rhsContracting := [1]
  lhsNonContracting := [0]
  rhsNonContracting := [0]
  lhsBatch := []
  rhsBatch := []
  wf := dot_S2048x128_S512x128_S2048x512_1_1_0_0_n_n_wf

abbrev win0_0 : Pipeline.Window sig grid0 :=
  Pipeline.Window.ofSpec (Memref.whole main_v35) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S512x128 : Shape := ⟨2, ![512, 128]⟩
abbrev S512 : Shape := ⟨1, ![512]⟩
abbrev S550000 : Shape := ⟨1, ![550000]⟩
abbrev S4096 : Shape := ⟨1, ![4096]⟩
abbrev S_ : Shape := ⟨0, ![]⟩
abbrev S550000x1 : Shape := ⟨2, ![550000, 1]⟩
abbrev S550000x128 : Shape := ⟨2, ![550000, 128]⟩
abbrev S50000 : Shape := ⟨1, ![50000]⟩
abbrev S50000x1 : Shape := ⟨2, ![50000, 1]⟩
abbrev S128x512 : Shape := ⟨2, ![128, 512]⟩
abbrev S50000x512 : Shape := ⟨2, ![50000, 512]⟩
abbrev S1x512 : Shape := ⟨2, ![1, 512]⟩
abbrev S4096x1 : Shape := ⟨2, ![4096, 1]⟩
abbrev S4096x512 : Shape := ⟨2, ![4096, 512]⟩

abbrev nBuf : Space → Nat
  | .hbm => 47
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S512x128, .f32⟩
  | .hbm, ⟨2, _⟩ => ⟨S512, .f32⟩
  | .hbm, ⟨3, _⟩ => ⟨S550000, .i32⟩
  | .hbm, ⟨4, _⟩ => ⟨S550000, .i32⟩
  | .hbm, ⟨5, _⟩ => ⟨S4096, .i32⟩
  | .hbm, ⟨6, _⟩ => ⟨S_, .i32⟩
  | .hbm, ⟨7, _⟩ => ⟨S550000, .i32⟩
  | .hbm, ⟨8, _⟩ => ⟨S550000, .i1⟩
  | .hbm, ⟨9, _⟩ => ⟨S_, .i32⟩
  | .hbm, ⟨10, _⟩ => ⟨S550000, .i32⟩
  | .hbm, ⟨11, _⟩ => ⟨S550000, .i32⟩
  | .hbm, ⟨12, _⟩ => ⟨S550000, .i32⟩
  | .hbm, ⟨13, _⟩ => ⟨S550000x1, .i32⟩
  | .hbm, ⟨14, _⟩ => ⟨S550000x128, .f32⟩
  | .hbm, ⟨15, _⟩ => ⟨S_, .f32⟩
  | .hbm, ⟨16, _⟩ => ⟨S50000x128, .f32⟩
  | .hbm, ⟨17, _⟩ => ⟨S550000x1, .i32⟩
  | .hbm, ⟨18, _⟩ => ⟨S50000x128, .f32⟩
  | .hbm, ⟨19, _⟩ => ⟨S_, .f32⟩
  | .hbm, ⟨20, _⟩ => ⟨S550000, .f32⟩
  | .hbm, ⟨21, _⟩ => ⟨S_, .f32⟩
  | .hbm, ⟨22, _⟩ => ⟨S50000, .f32⟩
  | .hbm, ⟨23, _⟩ => ⟨S550000x1, .i32⟩
  | .hbm, ⟨24, _⟩ => ⟨S50000, .f32⟩
  | .hbm, ⟨25, _⟩ => ⟨S50000x128, .f32⟩
  | .hbm, ⟨26, _⟩ => ⟨S50000x1, .f32⟩
  | .hbm, ⟨27, _⟩ => ⟨S_, .f32⟩
  | .hbm, ⟨28, _⟩ => ⟨S50000x1, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S128x512, .f32⟩
  | .hbm, ⟨33, _⟩ => ⟨S50000x512, .f32⟩
  | .hbm, ⟨34, _⟩ => ⟨S1x512, .f32⟩
  | .hbm, ⟨35, _⟩ => ⟨S50000x512, .f32⟩
  | .hbm, ⟨36, _⟩ => ⟨S50000x512, .f32⟩
  | .hbm, ⟨37, _⟩ => ⟨S50000x512, .f32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S4096x1, .i32⟩
  | .hbm, ⟨46, _⟩ => ⟨S4096x512, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  bcast_S_S550000 : S_.BroadcastsInDim S550000 (![] : Fin 0 → Fin S550000.rank)
  bcast_S550000_S550000x1_0 : S550000.BroadcastsInDim S550000x1 (![0] : Fin 1 → Fin S550000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S512x128_S128x512_1_0 : S512x128.Transposes [1, 0] S128x512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S4096 : S_.BroadcastsInDim S4096 (![] : Fin 0 → Fin S4096.rank)
  bcast_S4096_S4096x1_0 : S4096.BroadcastsInDim S4096x1 (![0] : Fin 1 → Fin S4096x1.rank)
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  scatter_S50000_S550000x1_S550000_n_0_0_1_wf : ScatterDims.WF S50000 S550000x1 S550000 [] [0] [0] 1
  dot_S50000x128_S128x512_S50000x512_1_0_0_1_n_n_wf : DotDims.WF S50000x128 S128x512 S50000x512 [1] [0] [0] [1] [] []
  gather_S50000x512_S4096x1_S4096x512_1_0_n_n_0_1_1512_wf : GatherDims.WF S50000x512 S4096x1 S4096x512 [1] [0] [] [0] [] 1 ![1, 512]

variable [Facts₀]

def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def gather_S50000x512_S4096x1_S4096x512_1_0_n_n_0_1_1512 : GatherDims S50000x512 S4096x1 S4096x512 where
  offsetDims := [1]
  collapsedSliceDims := [0]
  operandBatchingDims := []
  startIndicesBatchingDims := []
  startIndexMap := [0]
  indexVectorDim := 1
  sliceSizes := ![1, 512]
  wf := gather_S50000x512_S4096x1_S4096x512_1_0_n_n_0_1_1512_wf

class Facts : Prop extends Facts₀ where

variable [Facts]
-- ==== Proof.LibColumnLayouts.lean ====
/-
  Column ("keepdims") layout operations and one-axis minimum reductions read at an index, for any extents:

    * a column `[a, 1]` broadcast to `[a, b]` reads, at `(p, c)`, the column at `p`;
    * a vector `[a]` cast to a column `[a, 1]` reads, at `(p, u)`, the vector at `p`;
    * a `[1, 1, 1]` array broadcast along its last axis to `[1, 1, b]` reads its one element everywhere;
    * at the exact instance a `vector.multi_reduction <minimumf>` over ONE axis is, at each reduced index, the fold of
      `min` from the accumulator's value over that axis's coordinates (the inserted index is `Shape.Reduces.lift`).
-/
import Idealize.ShloMosaic.PureOps.Ideal.Laws
import Idealize.ShloMosaic.Lib.Pipeline.Value
import Idealize.ShloMosaic.Lib.ValueIdx
import Idealize.ShloMosaic.Lib.ValueLayout

noncomputable section

namespace Idealize.ShloMosaic.ColumnLayouts

open Idealize.ShloMosaic Idealize.ShloMosaic.ValueIdx

variable {α : Type}

/-- An `[a, 1]` column broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(p, u)`, the vector at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A `[1, 1, 1]` array broadcast to `[1, 1, b]` reads its one element at every lane. -/
theorem broadcastTo_111_11b_apply {b : ℕ} (v : (⟨3, ![1, 1, 1]⟩ : Shape).Idx → α)
    (h : (⟨3, ![1, 1, 1]⟩ : Shape).Broadcasts ⟨3, ![1, 1, b]⟩) (u0 u1 : Fin 1) (c : Fin b) :
    broadcastTo ⟨3, ![1, 1, b]⟩ v h (ix3 u0 u1 c) = v (ix3 (0 : Fin 1) (0 : Fin 1) (0 : Fin 1)) := by
  refine broadcastTo_apply v h (ix3 u0 u1 c) (ix3 (0 : Fin 1) (0 : Fin 1) (0 : Fin 1)) fun ax => ?_
  match ax with
  | ⟨0, _⟩ => rfl
  | ⟨1, _⟩ => rfl
  | ⟨2, _⟩ => rfl

variable {φ : FTy}

/-- A float `vector.multi_reduction <minimumf>` over one axis, read at the exact instance: the fold of `min` from the
    accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

end Idealize.ShloMosaic.ColumnLayouts

end
-- ==== Proof.KernelPayload.lean ====
import proofs.«155150_j69870527971698_2_alg».proof.Proof.Gen.KernelIdeal.Skeleton
import proofs.«155150_j69870527971698_2_alg».proof.Proof.LibColumnLayouts
import Idealize.ShloMosaic.Lib.ValueIdx
import Idealize.ShloMosaic.Lib.ValueLayout
import Idealize.ShloMosaic.Lib.Pipeline.Value
import Idealize.ShloMosaic.PureOps.Ideal.Laws

/-!
# What one grid point computes, entry by entry

A grid point holds 2048 rows of the numerator table (`[2048, 128]`), the same rows of the reciprocal column
(`[2048, 1]`), the whole weight matrix (`[512, 128]`) and the bias row (`[1, 512]`). It scales each numerator row by its
reciprocal, contracts the 128 features against every weight row, adds the bias and applies `tanh`. On the extended
reals the two changes of float format in front of the contraction are the identity and the contraction onto a zero
accumulator is the plain sum, so entry `(p, q)` of the block it stores is

    tanh (∑ₖ (num p k · inv p) · wt q k + bias q).
-/

noncomputable section

open scoped BigOperators

namespace Cert.KernelIdeal.Payload

open Cert.KernelIdeal Cert.KernelIdeal.Gen Idealize.ShloMosaic Idealize.ShloMosaic.ValueIdx
  Idealize.ShloMosaic.ColumnLayouts

/-- The contraction's dimension numbers: axis 1 of both operands is contracted, axis 0 of each is kept. -/
abbrev dot := dot_S2048x128_S512x128_S2048x512_1_1_0_0_n_n

theorem lhs_0 (i : S2048x512.Idx) (q : dot.contr.Idx) : (dot.lhsIdx i q 0).val = (i 0).val := by
  unfold DotDims.lhsIdx
  rw [dif_neg (show ¬(0 : Fin S2048x128.rank) ∈ dot.lhsBatch by decide),
    dif_pos (show (0 : Fin S2048x128.rank) ∈ dot.lhsNonContracting by decide)]
  rfl
theorem lhs_1 (i : S2048x512.Idx) (q : dot.contr.Idx) : (dot.lhsIdx i q 1).val = (q ⟨0, by decide⟩).val :=
  dot.lhsIdx_val_of_single rfl i q
theorem rhs_0 (i : S2048x512.Idx) (q : dot.contr.Idx) : (dot.rhsIdx i q 0).val = (i 1).val := by
  unfold DotDims.rhsIdx
  rw [dif_neg (show ¬(0 : Fin S512x128.rank) ∈ dot.rhsBatch by decide),
    dif_pos (show (0 : Fin S512x128.rank) ∈ dot.rhsNonContracting by decide)]
  rfl
theorem rhs_1 (i : S2048x512.Idx) (q : dot.contr.Idx) : (dot.rhsIdx i q 1).val = (q ⟨0, by decide⟩).val :=
  dot.rhsIdx_val_of_single rfl i q

/-- The contraction onto a zero accumulator, read at `(p, q)`: row `p` of the left operand against row `q` of the
    right one, summed over the 128 contracted coordinates. -/
theorem contraction_apply (a : FVec Ideal S2048x128 .bf16) (b : FVec Ideal S512x128 .bf16) (p : Fin 2048) (q : Fin 512) :
    matmul dot none a b (constant S2048x512 .f32 0x00000000#32) (ix2 p q) = ∑ k : Fin 128, a (ix2 p k) * b (ix2 q k) := by
  refine (Ideal.matmul_constant_zero_apply dot none a b (ix2 p q)).trans ?_
  rw [← Equiv.sum_comp (ValueIdx.contrEquiv1 dot 128 rfl rfl).symm]
  refine Finset.sum_congr rfl fun k _ => ?_
  have hk := ValueIdx.contrEquiv1_symm_val dot 128 rfl rfl k
  have el : dot.lhsIdx (ix2 p q) ((ValueIdx.contrEquiv1 dot 128 rfl rfl).symm k) = ix2 p k := funext fun ax => Fin.ext (by
    match ax with
    | ⟨0, _⟩ => exact lhs_0 _ _
    | ⟨1, _⟩ => exact (lhs_1 _ _).trans hk)
  have er : dot.rhsIdx (ix2 p q) ((ValueIdx.contrEquiv1 dot 128 rfl rfl).symm k) = ix2 q k := funext fun ax => Fin.ext (by
    match ax with
    | ⟨0, _⟩ => exact rhs_0 _ _
    | ⟨1, _⟩ => exact (rhs_1 _ _).trans hk)
  rw [el, er]

/-- THE STORED BLOCK AT `(p, q)`: the scaled numerator row `p` against weight row `q`, plus the bias, through `tanh`. -/
theorem pay_apply (num : Vec Ideal S2048x128 .f32) (inv : Vec Ideal S2048x1 .f32) (wt : Vec Ideal S512x128 .f32)
    (bias : Vec Ideal S1x512 .f32) (p : Fin 2048) (q : Fin 512) :
    k0_pay1 (F := Ideal) num inv wt bias (ix2 p q)
      = Ideal.tanh ((∑ k : Fin 128, (num (ix2 p k) * inv (ix2 p (0 : Fin 1))) * wt (ix2 q k)) + bias (ix2 (0 : Fin 1) q)) := by
  unfold k0_pay1
  show Ideal.tanh (matmul (F := Ideal) dot none _ _ (constant (F := Ideal) S2048x512 .f32 0x00000000#32) (ix2 p q) + _) = _
  refine congrArg Ideal.tanh ?_
  refine congrArg₂ (· + ·) ((contraction_apply _ _ p q).trans (Finset.sum_congr rfl fun k _ => ?_)) ?_
  · show (shapeCast S2048x128 num _ (ix2 p k) * broadcastTo S2048x128 (shapeCast S2048x1 inv _) _ (ix2 p k)) * wt (ix2 q k) = _
    rw [shapeCast_self, shapeCast_self]
    exact congrArg (fun t => num (ix2 p k) * t * wt (ix2 q k)) (broadcastTo_a1_ab_apply inv _ p k)
  · show broadcastTo S2048x512 (shapeCast S1x512 bias _) _ (ix2 p q) = _
    rw [shapeCast_self]
    exact broadcastTo_1b_ab_apply bias _ p q

end Cert.KernelIdeal.Payload
-- ==== Proof.HostPrefix.lean ====
import proofs.«155150_j69870527971698_2_alg».proof.Proof.Gen.KernelIdeal.Frame
import Idealize.ShloMosaic.Lib.StableHlo.Run
import Idealize.ShloMosaic.PureOps.Ideal

/-!
# The arrays the kernel's grid finds

Before the grid starts, the program computes on the host, from the arguments `feat`, `bias`, `src`, `dst`, `ids`:

* `neighSum` — for every node the sum of `feat`'s rows over its incoming edges (rows gathered at `src`, negative
  indices wrapped, scatter-added at `dst` into zeros);
* `degree` — for every node its number of incoming edges (ones scatter-added at `dst` into zeros);
* `wrapCol ids` — the wanted node indices as a column, negative ones wrapped by the number of nodes.

The grid's numerator table is `neighSum`'s rows at the wanted nodes plus `feat`'s rows there; its reciprocal column is
one over (`degree` at the wanted nodes, plus one), as a column; its bias row is `bias` as a row. The weight matrix is
passed as it is.
-/

noncomputable section

namespace Cert.KernelIdeal.HostPrefix

open Cert.KernelIdeal Cert.KernelIdeal.Gen Idealize.ShloMosaic Idealize.ShloMosaic.TcCoe Idealize.SL.Sem
  Idealize.ShloMosaic.StableHlo

/-- The wanted node indices as a column, a negative index wrapped by the number of nodes. -/
def wrapCol (ids : IVec S4096 32) : IVec S4096x1 32 :=
  broadcastInDim S4096x1 ![0] bcast_S4096_S4096x1_0
    (select (cmpi .slt ids (broadcastInDim S4096 ![] bcast_S_S4096 (constantI S_ 32 0#32)))
      (addi ids (broadcastInDim S4096 ![] bcast_S_S4096 (constantI S_ 32 50000#32))) ids)

/-- Every node's sum of `feat`'s rows over its incoming edges. -/
def neighSum (feat : FVec Ideal S50000x128 .f32) (src dst : IVec S550000 32) : FVec Ideal S50000x128 .f32 :=
  Host.scatterAdd (F := Ideal) scatter_S50000x128_S550000x1_S550000x128_1_0_0_1
    (broadcastInDim S50000x128 ![] bcast_S_S50000x128 (constant (F := Ideal) S_ .f32 0x00000000#32))
    (broadcastInDim S550000x1 ![0] bcast_S550000_S550000x1_0 dst)
    (Host.gather gather_S50000x128_S550000x1_S550000x128_1_0_n_n_0_1_1128 feat
      (broadcastInDim S550000x1 ![0] bcast_S550000_S550000x1_0
        (select (cmpi .slt src (broadcastInDim S550000 ![] bcast_S_S550000 (constantI S_ 32 0#32)))
          (addi src (broadcastInDim S550000 ![] bcast_S_S550000 (constantI S_ 32 50000#32))) src)))

/-- Every node's number of incoming edges: ones added onto zeros. -/
def degree (dst : IVec S550000 32) : FVec Ideal S50000 .f32 :=
  Host.scatterAdd (F := Ideal) scatter_S50000_S550000x1_S550000_n_0_0_1
    (broadcastInDim S50000 ![] bcast_S_S50000 (constant (F := Ideal) S_ .f32 0x00000000#32))
    (broadcastInDim S550000x1 ![0] bcast_S550000_S550000x1_0 dst)
    (broadcastInDim S550000 ![] bcast_S_S550000 (constant (F := Ideal) S_ .f32 0x3F800000#32))

/-- The numerator table: the neighbour sums' rows at the wanted nodes plus `feat`'s rows there. -/
def numer (feat : FVec Ideal S50000x128 .f32) (src dst : IVec S550000 32) (ids : IVec S4096 32) :
    FVec Ideal S4096x128 .f32 :=
  addf (F := Ideal) (Host.gather gather_S50000x128_S4096x1_S4096x128_1_0_n_n_0_1_1128 (neighSum feat src dst) (wrapCol ids))
    (Host.gather gather_S50000x128_S4096x1_S4096x128_1_0_n_n_0_1_1128 feat (wrapCol ids))

/-- The reciprocal column: one over (the wanted nodes' degrees plus one). -/
def recipCol (dst : IVec S550000 32) (ids : IVec S4096 32) : FVec Ideal S4096x1 .f32 :=
  shapeCast S4096x1
    (Host.divf (F := Ideal) (broadcastInDim S4096 ![] bcast_S_S4096 (constant (F := Ideal) S_ .f32 0x3F800000#32))
      (addf (F := Ideal) (Host.gather gather_S50000_S4096x1_S4096_n_0_n_n_0_1_1 (degree dst) (wrapCol ids))
        (broadcastInDim S4096 ![] bcast_S_S4096 (constant (F := Ideal) S_ .f32 0x3F800000#32))))
    shapeCasts_S4096_S4096x1

/-- The bias as a row. -/
def biasRow (bias : FVec Ideal S512 .f32) : FVec Ideal S1x512 .f32 :=
  shapeCast S1x512 bias shapeCasts_S512_S1x512

variable (m : (ℓ : Loc nD τ sig) → Buf (Elt Ideal) ℓ)

/-- The grid's first operand is the numerator table of the arguments. -/
theorem V_numer (c : Dev nD) :
    (V m c main_v35 : FVec Ideal S4096x128 .f32)
      = numer (m ((c.tc : Thread nD τ).loc main_arg0)) (m ((c.tc : Thread nD τ).loc main_arg3))
          (m ((c.tc : Thread nD τ).loc main_arg4)) (m ((c.tc : Thread nD τ).loc main_arg5)) := by
  dsimp only [Gen.V, Gen.hostOps0]
  after_results_simp <;> rfl

/-- Its second operand is the reciprocal column. -/
theorem V_recipCol (c : Dev nD) :
    (V m c main_v40 : FVec Ideal S4096x1 .f32)
      = recipCol (m ((c.tc : Thread nD τ).loc main_arg4)) (m ((c.tc : Thread nD τ).loc main_arg5)) := by
  dsimp only [Gen.V, Gen.hostOps0]
  after_results_simp <;> rfl

/-- Its fourth operand is the bias as a row. -/
theorem V_biasRow (c : Dev nD) :
    (V m c main_v41 : FVec Ideal S1x512 .f32) = biasRow (m ((c.tc : Thread nD τ).loc main_arg2)) := by
  dsimp only [Gen.V, Gen.hostOps0]
  after_results_simp <;> rfl

end Cert.KernelIdeal.HostPrefix
-- ==== Proof.KernelArray.lean ====
import proofs.«155150_j69870527971698_2_alg».proof.Proof.Gen.KernelIdeal.Value
import proofs.«155150_j69870527971698_2_alg».proof.Proof.KernelPayload
import proofs.«155150_j69870527971698_2_alg».proof.Proof.HostPrefix

/-!
# From the grid's blocks to the whole result

The grid has two points. Point `t` reads rows `2048·t … 2048·t + 2047` of the numerator table and of the reciprocal
column, the whole weight matrix and the whole bias row, and writes rows `2048·t … 2048·t + 2047` of the result (all 512
columns). So every entry `(b, j)` of the result is written by exactly the point `b / 2048`, and what it writes there is

    tanh (∑ₖ (num b k · inv b) · wt j k + bias j)

of the FULL arrays' entries: the blocks are restrictions of one whole-array function, and the two blocks tile the result.
-/

noncomputable section

open scoped BigOperators

namespace Cert.KernelIdeal.Blocks

open Cert.KernelIdeal Cert.KernelIdeal.Gen Idealize.ShloMosaic Idealize.ShloMosaic.TcCoe Idealize.SL.Sem
  Idealize.ShloMosaic.ValueIdx Cert.KernelIdeal.HostPrefix
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Entry `(b, j)` of the grid's result as a function of the four arrays the grid finds. -/
def gridAt (num : FVec Ideal S4096x128 .f32) (inv : FVec Ideal S4096x1 .f32) (wt : FVec Ideal S512x128 .f32)
    (bias : FVec Ideal S1x512 .f32) (b : Fin 4096) (j : Fin 512) : EReal :=
  Ideal.tanh ((∑ k : Fin 128, (num (ix2 b k) * inv (ix2 b (0 : Fin 1))) * wt (ix2 j k)) + bias (ix2 (0 : Fin 1) j))

/-- The grid's whole result. -/
def gridOut (num : FVec Ideal S4096x128 .f32) (inv : FVec Ideal S4096x1 .f32) (wt : FVec Ideal S512x128 .f32)
    (bias : FVec Ideal S1x512 .f32) : FVec Ideal S4096x512 .f32 :=
  fun i => gridAt num inv wt bias ⟨(i 0).val, idx2_lt0 i⟩ ⟨(i 1).val, idx2_lt1 i⟩

/-- The block index maps over the two points: the row-blocked windows (numerator, reciprocal column, result) sit at
    block row `t`, the whole-array windows (weights, bias) at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## Where a block's entry sits in its array -/

theorem emb0 (t : Fin cfg0.N) (p : Fin 2048) (k : Fin 128) (hr : t.val * 2048 + p.val < 4096) :
    ((cfg0.win 0).blk t).view.emb (ix2 p k) = ix2 (⟨t.val * 2048 + p.val, hr⟩ : Fin 4096) k := by
  obtain ⟨e0, e1, -⟩ := idx_facts t
  funext a; apply Fin.ext
  match a with
  | ⟨0, _⟩ => show win0_0.index t (0 : Fin 2) * 2048 + 1 * p.val = t.val * 2048 + p.val; omega
  | ⟨1, _⟩ => show win0_0.index t (1 : Fin 2) * 128 + 1 * k.val = k.val; omega

theorem emb1 (t : Fin cfg0.N) (p : Fin 2048) (hr : t.val * 2048 + p.val < 4096) :
    ((cfg0.win 1).blk t).view.emb (ix2 p (0 : Fin 1)) = ix2 (⟨t.val * 2048 + p.val, hr⟩ : Fin 4096) (0 : Fin 1) := by
  obtain ⟨-, -, e0, e1, -⟩ := idx_facts t
  funext a; apply Fin.ext
  match a with
  | ⟨0, _⟩ => show win0_1.index t (0 : Fin 2) * 2048 + 1 * p.val = t.val * 2048 + p.val; omega
  | ⟨1, _⟩ => show win0_1.index t (1 : Fin 2) * 1 + 1 * 0 = 0; omega

theorem emb2 (t : Fin cfg0.N) (q : Fin 512) (k : Fin 128) :
    ((cfg0.win 2).blk t).view.emb (ix2 q k) = ix2 q k := by
  obtain ⟨-, -, -, -, e0, e1, -⟩ := idx_facts t
  funext a; apply Fin.ext
  match a with
  | ⟨0, _⟩ => show win0_2.index t (0 : Fin 2) * 512 + 1 * q.val = q.val; omega
  | ⟨1, _⟩ => show win0_2.index t (1 : Fin 2) * 128 + 1 * k.val = k.val; omega

theorem emb3 (t : Fin cfg0.N) (q : Fin 512) :
    ((cfg0.win 3).blk t).view.emb (ix2 (0 : Fin 1) q) = ix2 (0 : Fin 1) q := by
  obtain ⟨-, -, -, -, -, -, e0, e1, -⟩ := idx_facts t
  funext a; apply Fin.ext
  match a with
  | ⟨0, _⟩ => show win0_3.index t (0 : Fin 2) * 1 + 1 * 0 = 0; omega
  | ⟨1, _⟩ => show win0_3.index t (1 : Fin 2) * 512 + 1 * q.val = q.val; omega

theorem emb4 (t : Fin cfg0.N) (p : Fin 2048) (q : Fin 512) (hr : t.val * 2048 + p.val < 4096) :
    ((cfg0.win 4).blk t).view.emb (ix2 p q) = ix2 (⟨t.val * 2048 + p.val, hr⟩ : Fin 4096) q := by
  obtain ⟨-, -, -, -, -, -, -, -, e0, e1⟩ := idx_facts t
  funext a; apply Fin.ext
  match a with
  | ⟨0, _⟩ => show win0_4.index t (0 : Fin 2) * 2048 + 1 * p.val = t.val * 2048 + p.val; omega
  | ⟨1, _⟩ => show win0_4.index t (1 : Fin 2) * 512 + 1 * q.val = q.val; omega

/-! ## A point's input blocks are the arrays' entries -/

theorem read0 (c : Dev nD) (t : Fin cfg0.N) (p : Fin 2048) (k : Fin 128) (hr : t.val * 2048 + p.val < 4096) :
    iblk m c 0 t (ix2 p k) = V m c main_v35 (ix2 (⟨t.val * 2048 + p.val, hr⟩ : Fin 4096) k) := by
  show V m c main_v35 (((cfg0.win 0).blk t).view.emb (ix2 p k)) = _
  rw [emb0 t p k hr]

theorem read1 (c : Dev nD) (t : Fin cfg0.N) (p : Fin 2048) (hr : t.val * 2048 + p.val < 4096) :
    iblk m c 1 t (ix2 p (0 : Fin 1)) = V m c main_v40 (ix2 (⟨t.val * 2048 + p.val, hr⟩ : Fin 4096) (0 : Fin 1)) := by
  show V m c main_v40 (((cfg0.win 1).blk t).view.emb (ix2 p (0 : Fin 1))) = _
  rw [emb1 t p hr]

theorem read2 (c : Dev nD) (t : Fin cfg0.N) (q : Fin 512) (k : Fin 128) :
    iblk m c 2 t (ix2 q k) = V m c main_arg1 (ix2 q k) := by
  show V m c main_arg1 (((cfg0.win 2).blk t).view.emb (ix2 q k)) = _
  rw [emb2 t q k]

theorem read3 (c : Dev nD) (t : Fin cfg0.N) (q : Fin 512) :
    iblk m c 3 t (ix2 (0 : Fin 1) q) = V m c main_v41 (ix2 (0 : Fin 1) q) := by
  show V m c main_v41 (((cfg0.win 3).blk t).view.emb (ix2 (0 : Fin 1) q)) = _
  rw [emb3 t q]

/-! ## What a point writes back, the cover, and the whole array -/

/-- WHAT POINT `t` WRITES BACK is block `t` of the one whole-array function `gridOut` of the arrays the grid finds. -/
theorem flushed_eq (c : Dev nD) (t : Fin cfg0.N) :
    (dats m 0 c).flushed 4 t = ((cfg0.win 4).blk t).view.read (Elt Ideal)
      (gridOut (V m c main_v35) (V m c main_v40) (V m c main_arg1) (V m c main_v41)) := by
  rw [Value.flushed4]
  unfold out0_4
  rw [View.canon_unit_zero hz]
  simp only [View.ld_unit_zero (S := S2048x128) hz, View.ld_unit_zero (S := S2048x1) hz,
    View.ld_unit_zero (S := S512x128) hz, View.ld_unit_zero (S := S1x512) hz]
  have ht : t.val < 2 := lt_of_lt_of_eq t.isLt N_0
  -- entry by entry, the stored block is the whole-array function at the entry's place in the array
  have hP : ∀ (p : Fin 2048) (q : Fin 512) (hr : t.val * 2048 + p.val < 4096),
      k0_pay1 (F := Ideal) (iblk m c 0 t) (iblk m c 1 t) (iblk m c 2 t) (iblk m c 3 t) (ix2 p q)
        = gridOut (V m c main_v35) (V m c main_v40) (V m c main_arg1) (V m c main_v41)
            (ix2 (⟨t.val * 2048 + p.val, hr⟩ : Fin 4096) q) := by
    intro p q hr
    refine (Payload.pay_apply (iblk m c 0 t) (iblk m c 1 t) (iblk m c 2 t) (iblk m c 3 t) p q).trans ?_
    show _ = gridAt (V m c main_v35) (V m c main_v40) (V m c main_arg1) (V m c main_v41) ⟨t.val * 2048 + p.val, hr⟩ q
    unfold gridAt
    refine congrArg Ideal.tanh (congrArg₂ (· + ·) (Finset.sum_congr rfl fun k _ => ?_) (read3 m c t q))
    rw [read0 m c t p k hr, read1 m c t p hr, read2 m c t q k]
  -- from here on the block and the array are opaque: only the window's geometry is looked at
  generalize k0_pay1 (F := Ideal) (iblk m c 0 t) (iblk m c 1 t) (iblk m c 2 t) (iblk m c 3 t) = P at hP ⊢
  generalize gridOut (V m c main_v35) (V m c main_v40) (V m c main_arg1) (V m c main_v41) = G at hP ⊢
  funext y
  show P y = G (((cfg0.win 4).blk t).view.emb y)
  obtain ⟨p, q, rfl⟩ : ∃ (p : Fin 2048) (q : Fin 512), y = ix2 p q := ⟨y 0, y 1, eq_ix2 y⟩
  have hr : t.val * 2048 + p.val < 4096 := by have := p.isLt; omega
  rw [emb4 t p q hr]
  exact hP p q hr

/-- An index of the result is in point `t`'s block iff each coordinate is in the block's range on its axis. -/
theorem mem_blk (t : Fin cfg0.N) (i : S4096x512.Idx) :
    i ∈ ((cfg0.win 4).blk t).view.set ↔ ∀ a : Fin 2, win0_4.index t a * S2048x512.size a ≤ (i a).val
      ∧ (i a).val < win0_4.index t a * S2048x512.size a + S2048x512.size a := by
  show i ∈ ((View.whole main_v42).slice (win0_4.rect t)).set ↔ _
  rw [View.set_slice_whole, Rect.mem_set_unit]
  exact Iff.rfl

/-- Every entry of the result is in the block of the point that its row's half names. -/
theorem cover (i : S4096x512.Idx) :
    ∃ t : Fin cfg0.N, (cfg0.win 4).flush t = true ∧ i ∈ ((cfg0.win 4).blk t).view.set := by
  have hi0 : (i 0).val < 4096 := idx2_lt0 i
  have hi1 : (i 1).val < 512 := idx2_lt1 i
  obtain ⟨t, htv⟩ : ∃ t : Fin cfg0.N, t.val = (i 0).val / 2048 :=
    ⟨Fin.cast N_0.symm ⟨(i 0).val / 2048, by omega⟩, rfl⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 512 ≤ (i 1).val ∧ (i 1).val < win0_4.index t (1 : Fin 2) * 512 + 512
    omega

/-- THE RESULT ARRAY after the run, over the arrays the grid finds. -/
theorem final (c : Dev nD) : (dats m 0 c).arrAt 4 cfg0.N
    = gridOut (V m c main_v35) (V m c main_v40) (V m c main_arg1) (V m c main_v41) :=
  (dats m 0 c).arrAt_eq_of_cover 4 _ (fun t _ => flushed_eq m c t) cover

/-- The same over the program's arguments: the numerator table, the reciprocal column, the weights and the bias row. -/
theorem final_args (c : Dev nD) : (dats m 0 c).arrAt 4 cfg0.N
    = gridOut (numer (m ((c.tc : Thread nD τ).loc main_arg0)) (m ((c.tc : Thread nD τ).loc main_arg3))
          (m ((c.tc : Thread nD τ).loc main_arg4)) (m ((c.tc : Thread nD τ).loc main_arg5)))
        (recipCol (m ((c.tc : Thread nD τ).loc main_arg4)) (m ((c.tc : Thread nD τ).loc main_arg5)))
        (m ((c.tc : Thread nD τ).loc main_arg1)) (biasRow (m ((c.tc : Thread nD τ).loc main_arg2))) := by
  rw [final m c, V_numer m c, V_recipCol m c, V_biasRow m c, V_main_arg1 m c]

/-- THE KERNEL'S RUN, READ: the result at `gridOut` of the arguments, the arguments unchanged. -/
theorem run : θ_run defs (onTc (τ := τ) (main (F := Ideal))) ⟨m, fun _ => 0, ρ⟩ fun r => ∀ c : Dev nD,
      r.2.mem ((c : Thread nD τ).loc main_v42)
        = gridOut (numer (m ((c.tc : Thread nD τ).loc main_arg0)) (m ((c.tc : Thread nD τ).loc main_arg3))
              (m ((c.tc : Thread nD τ).loc main_arg4)) (m ((c.tc : Thread nD τ).loc main_arg5)))
            (recipCol (m ((c.tc : Thread nD τ).loc main_arg4)) (m ((c.tc : Thread nD τ).loc main_arg5)))
            (m ((c.tc : Thread nD τ).loc main_arg1)) (biasRow (m ((c.tc : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_args m c), (h c).2⟩) (Value.run_blocks m ρ)

end Cert.KernelIdeal.Blocks
-- ==== Proof.LibRowOps.lean ====
import Idealize.ShloMosaic.PureOps.Ideal
import Idealize.ShloMosaic.Lib.ValueIdx

/-!
# Row gathers and row scatter-adds, read at an index

A table `x : [n, F]` indexed by an integer column `idx : [E, 1]`:

* the row gather `x[idx]` has result `[E, F]`; its entry `(e, f)` is `x (r, f)`, where `r` is the
  start index `idx (e, 0)` read as a signed integer and clamped into `[0, n - 1]`;
* the row scatter-add (a segment sum) adds update row `e` of `upd : [E, F]` into row `idx (e, 0)` of `x`;
  an update whose start index, read signed, is outside `[0, n)` is dropped. Entry `(r, f)` of the result is
  `x (r, f)` plus the sum of `upd (e, f)` over the update rows `e` that land on row `r`;
* the same for a vector `x : [n]` with updates `upd : [E]`.

Everything is stated for arbitrary extents `n`, `F`, `E` and an arbitrary index width `w`.
-/

noncomputable section

open scoped BigOperators

namespace Idealize.ShloMosaic.RowOps

open Idealize.ShloMosaic Idealize.ShloMosaic.ValueIdx

/-! ## Dimension numbers -/

/-- The dimension numbers of the row gather `x[idx]` for a table `[n, F]`, start indices `[E, 1]` and result
    `[E, F]`: one slice `[1, F]` per start index, the row axis collapsed, the column axis the result's offset
    axis; the index vector lies along axis 1 of the start indices and names operand axis 0. -/
abbrev rowGatherDims (n F E : Nat)
    (wf : GatherDims.WF ⟨2, ![n, F]⟩ ⟨2, ![E, 1]⟩ ⟨2, ![E, F]⟩ [1] [0] [] [0] [] 1 ![1, F]) :
    GatherDims ⟨2, ![n, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The dimension numbers of the row scatter for a table `[n, F]`, scatter indices `[E, 1]` and updates
    `[E, F]`: each update row is a window `[1, F]` whose row axis is inserted; the index vector lies along axis 1
    of the scatter indices and names operand axis 0. -/
abbrev rowScatterDims (n F E : Nat) (wf : ScatterDims.WF ⟨2, ![n, F]⟩ ⟨2, ![E, 1]⟩ ⟨2, ![E, F]⟩ [1] [0] [0] 1) :
    ScatterDims ⟨2, ![n, F]⟩ ⟨2, ![E, 1]⟩ ⟨2, ![E, F]⟩ where
  updateWindowDims := [1]
  insertedWindowDims := [0]
  scatterDimsToOperandDims := [0]
  indexVectorDim := 1
  wf := wf

/-- The dimension numbers of the scatter into a vector `[n]` at scatter indices `[E, 1]` with updates `[E]`:
    each update is one element (no window axes), the vector's axis is inserted. -/
abbrev vecScatterDims (n E : Nat) (wf : ScatterDims.WF ⟨1, ![n]⟩ ⟨2, ![E, 1]⟩ ⟨1, ![E]⟩ [] [0] [0] 1) :
    ScatterDims ⟨1, ![n]⟩ ⟨2, ![E, 1]⟩ ⟨1, ![E]⟩ where
  updateWindowDims := []
  insertedWindowDims := [0]
  scatterDimsToOperandDims := [0]
  indexVectorDim := 1
  wf := wf

/-! ## Where an update lands, and which row a gather reads -/

/-- The row of an `n`-row operand on which update `e` lands: its start index `idx (e, 0)` read as a signed
    integer, when that is in `[0, n)`; `none` when it is not (the update is dropped). -/
def land (n : Nat) {E w : Nat} (idx : IVec ⟨2, ![E, 1]⟩ w) (e : Fin E) : Option (Fin n) :=
  if h : 0 ≤ (idx (ix2 e 0)).toInt ∧ (idx (ix2 e 0)).toInt < n then
    some ⟨(idx (ix2 e 0)).toInt.toNat, by omega⟩
  else none

/-- The row of an `n`-row operand that a gather reads for start index `e`: `idx (e, 0)` read as a signed
    integer and clamped into `[0, n - 1]` (a negative index reads row `0`). -/
def clampRow (n : Nat) (hn : 0 < n) {E w : Nat} (idx : IVec ⟨2, ![E, 1]⟩ w) (e : Fin E) : Fin n :=
  ⟨min (idx (ix2 e 0)).toInt.toNat (n - 1), by omega⟩

/-! ## The row scatter-add at an index -/

section RowScatter

variable {n F E w : Nat} (wf : ScatterDims.WF ⟨2, ![n, F]⟩ ⟨2, ![E, 1]⟩ ⟨2, ![E, F]⟩ [1] [0] [0] 1)

/-- The scatter-indices index at which update `(e, f)` reads its one start-index component: `(e, 0)`. -/
theorem rowScatter_siIdx (e : Fin E) (f : Fin F) :
    (rowScatterDims n F E wf).siIdx (ix2 e f) ⟨List.idxOf (0 : Fin 2) (rowScatterDims n F E wf).scatterDimsToOperandDims,
      List.idxOf_lt_length_iff.2 (List.mem_singleton.mpr rfl)⟩ = ix2 e 0 := by
  funext b; refine Fin.ext ?_
  match b with
  | ⟨0, _⟩ => rfl
  | ⟨1, _⟩ => rfl

/-- On the row axis the window of update `(e, f)` starts at its start index, read signed. -/
theorem rowScatter_start_zero (idx : IVec ⟨2, ![E, 1]⟩ w) (e : Fin E) (f : Fin F) :
    (rowScatterDims n F E wf).start (ix2 e f) idx 0 = (idx (ix2 e 0)).toInt := by
  unfold ScatterDims.start
  rw [dif_pos (show (0 : Fin 2) ∈ (rowScatterDims n F E wf).scatterDimsToOperandDims from List.mem_singleton.mpr rfl),
    rowScatter_siIdx]

/-- On the column axis, which the start index does not name, the window starts at `0`. -/
theorem rowScatter_start_one (idx : IVec ⟨2, ![E, 1]⟩ w) (e : Fin E) (f : Fin F) :
    (rowScatterDims n F E wf).start (ix2 e f) idx 1 = 0 := by
  unfold ScatterDims.start
  rw [dif_neg (show (1 : Fin 2) ∉ (rowScatterDims n F E wf).scatterDimsToOperandDims from (by decide : (1 : Fin 2) ∉ ([0] : List (Fin 2))))]

/-- The row axis is inserted: the window coordinate there is `0`. -/
theorem rowScatter_window_zero (e : Fin E) (f : Fin F) : (rowScatterDims n F E wf).window (ix2 e f) 0 = 0 := by
  unfold ScatterDims.window
  rw [dif_neg (show (0 : Fin 2) ∉ (rowScatterDims n F E wf).sKept from (by decide : (0 : Fin 2) ∉ ([1] : List (Fin 2))))]

/-- On the column axis the window coordinate of update `(e, f)` is `f`. -/
theorem rowScatter_window_one (e : Fin E) (f : Fin F) : (rowScatterDims n F E wf).window (ix2 e f) 1 = f.val := by
  unfold ScatterDims.window
  rw [dif_pos (show (1 : Fin 2) ∈ (rowScatterDims n F E wf).sKept from (by decide : (1 : Fin 2) ∈ ([1] : List (Fin 2))))]
  rfl

/-- WHERE UPDATE `(e, f)` LANDS: at `(r, f)` when update row `e` lands on row `r`, nowhere when row `e` is dropped
    (the column coordinate `f < F` is always inside the operand). -/
theorem resultIdx?_row (idx : IVec ⟨2, ![E, 1]⟩ w) (e : Fin E) (f : Fin F) :
    (rowScatterDims n F E wf).resultIdx? (ix2 e f) idx = (land n idx e).map (fun r => ix2 r f) := by
  have key0 : (rowScatterDims n F E wf).start (ix2 e f) idx 0 + ((rowScatterDims n F E wf).window (ix2 e f) 0 : Nat)
      = (idx (ix2 e 0)).toInt := by
    rw [rowScatter_start_zero, rowScatter_window_zero]; simp
  have key1 : (rowScatterDims n F E wf).start (ix2 e f) idx 1 + ((rowScatterDims n F E wf).window (ix2 e f) 1 : Nat)
      = (f.val : Int) := by
    rw [rowScatter_start_one, rowScatter_window_one]; simp
  have hf : f.val < F := f.isLt
  unfold ScatterDims.resultIdx? land
  by_cases h : 0 ≤ (idx (ix2 e 0)).toInt ∧ (idx (ix2 e 0)).toInt < n
  · have hall : ∀ a, 0 ≤ (rowScatterDims n F E wf).start (ix2 e f) idx a + ((rowScatterDims n F E wf).window (ix2 e f) a : Nat) ∧
        (rowScatterDims n F E wf).start (ix2 e f) idx a + ((rowScatterDims n F E wf).window (ix2 e f) a : Nat)
          < ((⟨2, ![n, F]⟩ : Shape).size a : Nat) := by
      intro a
      match a with
      | ⟨0, _⟩ =>
        show 0 ≤ (rowScatterDims n F E wf).start (ix2 e f) idx 0 + ((rowScatterDims n F E wf).window (ix2 e f) 0 : Nat) ∧
          (rowScatterDims n F E wf).start (ix2 e f) idx 0 + ((rowScatterDims n F E wf).window (ix2 e f) 0 : Nat) < (n : Nat)
        rw [key0]; exact h
      | ⟨1, _⟩ =>
        show 0 ≤ (rowScatterDims n F E wf).start (ix2 e f) idx 1 + ((rowScatterDims n F E wf).window (ix2 e f) 1 : Nat) ∧
          (rowScatterDims n F E wf).start (ix2 e f) idx 1 + ((rowScatterDims n F E wf).window (ix2 e f) 1 : Nat) < (F : Nat)
        rw [key1]; omega
    rw [dif_pos hall, dif_pos h]
    show some _ = some _
    congr 1
    funext a
    refine Fin.ext ?_
    match a with
    | ⟨0, _⟩ =>
      show ((rowScatterDims n F E wf).start (ix2 e f) idx 0 + ((rowScatterDims n F E wf).window (ix2 e f) 0 : Nat)).toNat
        = (idx (ix2 e 0)).toInt.toNat
      rw [key0]
    | ⟨1, _⟩ =>
      show ((rowScatterDims n F E wf).start (ix2 e f) idx 1 + ((rowScatterDims n F E wf).window (ix2 e f) 1 : Nat)).toNat
        = f.val
      rw [key1]; rfl
  · have hnot : ¬ ∀ a, 0 ≤ (rowScatterDims n F E wf).start (ix2 e f) idx a + ((rowScatterDims n F E wf).window (ix2 e f) a : Nat) ∧
        (rowScatterDims n F E wf).start (ix2 e f) idx a + ((rowScatterDims n F E wf).window (ix2 e f) a : Nat)
          < ((⟨2, ![n, F]⟩ : Shape).size a : Nat) := by
      intro hall
      have h0 := hall 0
      rw [key0] at h0
      exact h h0
    rw [dif_neg hnot, dif_neg h]
    rfl

/-- Two rank-2 indices built from coordinates are equal exactly when their coordinates are. -/
theorem ix2_eq_ix2 {n0 n1 : Nat} {a a' : Fin n0} {b b' : Fin n1} : ix2 a b = ix2 a' b' ↔ a = a' ∧ b = b' :=
  ⟨fun h => ⟨congrFun h 0, congrFun h 1⟩, fun h => by rw [h.1, h.2]⟩

/-- Update `(e, f')` lands at `(r, f)` exactly when update row `e` lands on row `r` and `f' = f`. -/
theorem resultIdx?_row_eq_some (idx : IVec ⟨2, ![E, 1]⟩ w) (e : Fin E) (f' : Fin F) (r : Fin n) (f : Fin F) :
    (rowScatterDims n F E wf).resultIdx? (ix2 e f') idx = some (ix2 r f) ↔ land n idx e = some r ∧ f' = f := by
  rw [resultIdx?_row]
  cases land n idx e with
  | none => simp
  | some r' => simp [ix2_eq_ix2]

/-- THE ROW SCATTER-ADD READ AT `(r, f)`: the operand's entry plus the sum, over the update rows `e` that land on
    row `r`, of the update's entry `(e, f)`; a dropped update row contributes nothing. -/
theorem rowScatterAdd_apply (x : (⟨2, ![n, F]⟩ : Shape).Idx → EReal) (idx : IVec ⟨2, ![E, 1]⟩ w)
    (upd : (⟨2, ![E, F]⟩ : Shape).Idx → EReal) (r : Fin n) (f : Fin F) :
    Ideal.hostScatterAdd (rowScatterDims n F E wf) x idx upd (ix2 r f)
      = x (ix2 r f) + ∑ e ∈ Finset.univ.filter (fun e : Fin E => land n idx e = some r), upd (ix2 e f) := by
  unfold Ideal.hostScatterAdd
  congr 1
  refine Finset.sum_nbij' (fun j => (⟨(j 0).val, idx2_lt0 j⟩ : Fin E)) (fun e => ix2 e f) ?_ ?_ ?_ ?_ ?_
  · intro j hj
    obtain ⟨e, f', rfl⟩ : ∃ (e : Fin E) (f' : Fin F), j = ix2 e f' := ⟨j 0, j 1, eq_ix2 j⟩
    rw [Finset.mem_filter, resultIdx?_row_eq_some] at hj
    show e ∈ Finset.univ.filter (fun e : Fin E => land n idx e = some r)
    rw [Finset.mem_filter]
    exact ⟨Finset.mem_univ _, hj.2.1⟩
  · intro e he
    rw [Finset.mem_filter] at he ⊢
    exact ⟨Finset.mem_univ _, (resultIdx?_row_eq_some wf idx e f r f).mpr ⟨he.2, rfl⟩⟩
  · intro j hj
    obtain ⟨e, f', rfl⟩ : ∃ (e : Fin E) (f' : Fin F), j = ix2 e f' := ⟨j 0, j 1, eq_ix2 j⟩
    rw [Finset.mem_filter, resultIdx?_row_eq_some] at hj
    obtain ⟨-, -, rfl⟩ := hj
    rfl
  · intro e _
    rfl
  · intro j hj
    obtain ⟨e, f', rfl⟩ : ∃ (e : Fin E) (f' : Fin F), j = ix2 e f' := ⟨j 0, j 1, eq_ix2 j⟩
    rw [Finset.mem_filter, resultIdx?_row_eq_some] at hj
    obtain ⟨-, -, rfl⟩ := hj
    rfl

end RowScatter

/-! ## The scatter-add into a vector at an index -/

section VecScatter

variable {n E w : Nat} (wf : ScatterDims.WF ⟨1, ![n]⟩ ⟨2, ![E, 1]⟩ ⟨1, ![E]⟩ [] [0] [0] 1)

/-- The scatter-indices index at which update `e` reads its one start-index component: `(e, 0)`. -/
theorem vecScatter_siIdx (e : Fin E) :
    (vecScatterDims n E wf).siIdx (ix1 e) ⟨List.idxOf (0 : Fin 1) (vecScatterDims n E wf).scatterDimsToOperandDims,
      List.idxOf_lt_length_iff.2 (List.mem_singleton.mpr rfl)⟩ = ix2 e 0 := by
  funext b; refine Fin.ext ?_
  match b with
  | ⟨0, _⟩ => rfl
  | ⟨1, _⟩ => rfl

/-- The window of update `e` starts at its start index, read signed. -/
theorem vecScatter_start (idx : IVec ⟨2, ![E, 1]⟩ w) (e : Fin E) :
    (vecScatterDims n E wf).start (ix1 e) idx 0 = (idx (ix2 e 0)).toInt := by
  unfold ScatterDims.start
  rw [dif_pos (show (0 : Fin 1) ∈ (vecScatterDims n E wf).scatterDimsToOperandDims from List.mem_singleton.mpr rfl),
    vecScatter_siIdx]

/-- The vector's one axis is inserted: the window coordinate there is `0`. -/
theorem vecScatter_window (e : Fin E) : (vecScatterDims n E wf).window (ix1 e) 0 = 0 := by
  unfold ScatterDims.window
  rw [dif_neg (show (0 : Fin 1) ∉ (vecScatterDims n E wf).sKept from
    (by decide : (0 : Fin 1) ∉ ([] : List (Fin 1))))]

/-- WHERE UPDATE `e` LANDS: at its start index read signed, when that is inside the vector; nowhere when it is not. -/
theorem resultIdx?_vec (idx : IVec ⟨2, ![E, 1]⟩ w) (e : Fin E) :
    (vecScatterDims n E wf).resultIdx? (ix1 e) idx = (land n idx e).map (fun r => ix1 r) := by
  have key0 : (vecScatterDims n E wf).start (ix1 e) idx 0 + ((vecScatterDims n E wf).window (ix1 e) 0 : Nat)
      = (idx (ix2 e 0)).toInt := by
    rw [vecScatter_start, vecScatter_window]; simp
  unfold ScatterDims.resultIdx? land
  by_cases h : 0 ≤ (idx (ix2 e 0)).toInt ∧ (idx (ix2 e 0)).toInt < n
  · have hall : ∀ a, 0 ≤ (vecScatterDims n E wf).start (ix1 e) idx a + ((vecScatterDims n E wf).window (ix1 e) a : Nat) ∧
        (vecScatterDims n E wf).start (ix1 e) idx a + ((vecScatterDims n E wf).window (ix1 e) a : Nat)
          < ((⟨1, ![n]⟩ : Shape).size a : Nat) := by
      intro a
      match a with
      | ⟨0, _⟩ =>
        show 0 ≤ (vecScatterDims n E wf).start (ix1 e) idx 0 + ((vecScatterDims n E wf).window (ix1 e) 0 : Nat) ∧
          (vecScatterDims n E wf).start (ix1 e) idx 0 + ((vecScatterDims n E wf).window (ix1 e) 0 : Nat) < (n : Nat)
        rw [key0]; exact h
    rw [dif_pos hall, dif_pos h]
    show some _ = some _
    congr 1
    funext a
    refine Fin.ext ?_
    match a with
    | ⟨0, _⟩ =>
      show ((vecScatterDims n E wf).start (ix1 e) idx 0 + ((vecScatterDims n E wf).window (ix1 e) 0 : Nat)).toNat
        = (idx (ix2 e 0)).toInt.toNat
      rw [key0]
  · have hnot : ¬ ∀ a, 0 ≤ (vecScatterDims n E wf).start (ix1 e) idx a + ((vecScatterDims n E wf).window (ix1 e) a : Nat) ∧
        (vecScatterDims n E wf).start (ix1 e) idx a + ((vecScatterDims n E wf).window (ix1 e) a : Nat)
          < ((⟨1, ![n]⟩ : Shape).size a : Nat) := by
      intro hall
      have h0 := hall 0
      rw [key0] at h0
      exact h h0
    rw [dif_neg hnot, dif_neg h]
    rfl

/-- Two rank-1 indices built from a coordinate are equal exactly when their coordinates are. -/
theorem ix1_eq_ix1 {n0 : Nat} {a a' : Fin n0} : ix1 a = ix1 a' ↔ a = a' :=
  ⟨fun h => congrFun h 0, fun h => by rw [h]⟩

/-- Update `e` lands at `r` exactly when its start index, read signed, is `r`. -/
theorem resultIdx?_vec_eq_some (idx : IVec ⟨2, ![E, 1]⟩ w) (e : Fin E) (r : Fin n) :
    (vecScatterDims n E wf).resultIdx? (ix1 e) idx = some (ix1 r) ↔ land n idx e = some r := by
  rw [resultIdx?_vec]
  cases land n idx e with
  | none => simp
  | some r' => simp [ix1_eq_ix1]

/-- THE VECTOR SCATTER-ADD READ AT `r`: the operand's entry plus the sum of the updates that land on `r`; a
    dropped update contributes nothing. -/
theorem vecScatterAdd_apply (x : (⟨1, ![n]⟩ : Shape).Idx → EReal) (idx : IVec ⟨2, ![E, 1]⟩ w)
    (upd : (⟨1, ![E]⟩ : Shape).Idx → EReal) (r : Fin n) :
    Ideal.hostScatterAdd (vecScatterDims n E wf) x idx upd (ix1 r)
      = x (ix1 r) + ∑ e ∈ Finset.univ.filter (fun e : Fin E => land n idx e = some r), upd (ix1 e) := by
  unfold Ideal.hostScatterAdd
  congr 1
  refine Finset.sum_nbij' (fun j => (⟨(j 0).val, (j 0).isLt⟩ : Fin E)) (fun e => ix1 e) ?_ ?_ ?_ ?_ ?_
  · intro j hj
    obtain ⟨e, rfl⟩ : ∃ e : Fin E, j = ix1 e := ⟨j 0, eq_ix1 j⟩
    rw [Finset.mem_filter, resultIdx?_vec_eq_some] at hj
    show e ∈ Finset.univ.filter (fun e : Fin E => land n idx e = some r)
    rw [Finset.mem_filter]
    exact ⟨Finset.mem_univ _, hj.2⟩
  · intro e he
    rw [Finset.mem_filter] at he ⊢
    exact ⟨Finset.mem_univ _, (resultIdx?_vec_eq_some wf idx e r).mpr he.2⟩
  · intro j _
    obtain ⟨e, rfl⟩ : ∃ e : Fin E, j = ix1 e := ⟨j 0, eq_ix1 j⟩
    rfl
  · intro e _
    rfl
  · intro j _
    obtain ⟨e, rfl⟩ : ∃ e : Fin E, j = ix1 e := ⟨j 0, eq_ix1 j⟩
    rfl

end VecScatter

/-! ## The row gather at an index -/

section RowGather

variable {α : Type} {n F E w : Nat}

/-- THE ROW GATHER READ AT `(e, f)`: the table's entry `(r, f)`, where `r` is the start index `idx (e, 0)` read as a
    signed integer and clamped into `[0, n - 1]` (the slice has one row, so its start is clamped to the last row;
    a negative start index reads row `0`). -/
theorem rowGather_apply (hn : 0 < n)
    (wf : GatherDims.WF ⟨2, ![n, F]⟩ ⟨2, ![E, 1]⟩ ⟨2, ![E, F]⟩ [1] [0] [] [0] [] 1 ![1, F])
    (x : (⟨2, ![n, F]⟩ : Shape).Idx → α) (idx : IVec ⟨2, ![E, 1]⟩ w) (e : Fin E) (f : Fin F) :
    Host.gather (rowGatherDims n F E wf) x idx (ix2 e f) = x (ix2 (clampRow n hn idx e) f) := by
  unfold Host.gather
  congr 1
  funext a
  refine Fin.ext ?_
  match a with
  | ⟨0, _⟩ =>
    show (rowGatherDims n F E wf).start (ix2 e f) idx 0 + (rowGatherDims n F E wf).batchCoord (ix2 e f) 0
      + (rowGatherDims n F E wf).offCoord (ix2 e f) 0 = min (idx (ix2 e 0)).toInt.toNat (n - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n F E wf).startIndexMap from List.mem_singleton.mpr rfl)]
    have hsi : (rowGatherDims n F E wf).siIdx (ix2 e f) ⟨List.idxOf (0 : Fin 2) (rowGatherDims n F E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims n F E wf).start (ix2 e f) idx 1 + (rowGatherDims n F E wf).batchCoord (ix2 e f) 1
      + (rowGatherDims n F E wf).offCoord (ix2 e f) 1 = f.val
    rw [GatherDims.batchCoord_eq_zero _ _ _ List.not_mem_nil]
    have hst : (rowGatherDims n F E wf).start (ix2 e f) idx 1 = 0 := by
      unfold GatherDims.start
      rw [dif_neg (show (1 : Fin 2) ∉ (rowGatherDims n F E wf).startIndexMap from
        (by decide : (1 : Fin 2) ∉ ([0] : List (Fin 2))))]
    have hoff : (rowGatherDims n F E wf).offCoord (ix2 e f) 1 = f.val := by
      unfold GatherDims.offCoord
      rw [dif_pos (show (1 : Fin 2) ∈ (rowGatherDims n F E wf).sKept from
        (by decide : (1 : Fin 2) ∈ ([1] : List (Fin 2))))]
      rfl
    rw [hst, hoff]
    simp

end RowGather

/-! ## The scatter-adds as a program spells them -/

section Host

/-- The row scatter-add as a host operation at the ideal instance, read at `(r, f)`. -/
theorem rowScatterAdd_host_apply {φ : FTy} {n F E w : Nat}
    (wf : ScatterDims.WF ⟨2, ![n, F]⟩ ⟨2, ![E, 1]⟩ ⟨2, ![E, F]⟩ [1] [0] [0] 1)
    (x : FVec Ideal ⟨2, ![n, F]⟩ φ) (idx : IVec ⟨2, ![E, 1]⟩ w) (upd : FVec Ideal ⟨2, ![E, F]⟩ φ) (r : Fin n) (f : Fin F) :
    Host.scatterAdd (F := Ideal) (rowScatterDims n F E wf) x idx upd (ix2 r f)
      = x (ix2 r f) + ∑ e ∈ Finset.univ.filter (fun e : Fin E => land n idx e = some r), upd (ix2 e f) :=
  rowScatterAdd_apply wf x idx upd r f

/-- The scatter-add into a vector as a host operation at the ideal instance, read at `r`. -/
theorem vecScatterAdd_host_apply {φ : FTy} {n E w : Nat}
    (wf : ScatterDims.WF ⟨1, ![n]⟩ ⟨2, ![E, 1]⟩ ⟨1, ![E]⟩ [] [0] [0] 1)
    (x : FVec Ideal ⟨1, ![n]⟩ φ) (idx : IVec ⟨2, ![E, 1]⟩ w) (upd : FVec Ideal ⟨1, ![E]⟩ φ) (r : Fin n) :
    Host.scatterAdd (F := Ideal) (vecScatterDims n E wf) x idx upd (ix1 r)
      = x (ix1 r) + ∑ e ∈ Finset.univ.filter (fun e : Fin E => land n idx e = some r), upd (ix1 e) :=
  vecScatterAdd_apply wf x idx upd r

end Host

end Idealize.ShloMosaic.RowOps
-- ==== Proof.Spec.lean ====
import Idealize.ShloMosaic.PureOps.Ideal
import Idealize.ShloMosaic.PureOps.Ideal.Laws
import Idealize.ShloMosaic.Lib.ValueIdx
import proofs.«155150_j69870527971698_2_alg».proof.Proof.LibRowOps

/-!
# One mean-aggregating graph layer, entry by entry

The data: a feature table `x : [50000, 128]`, the table `ns : [50000, 128]` of neighbour sums, the vector
`deg : [50000]` of in-degrees, a weight matrix `wt : [512, 128]` and a bias `bias : [512]`. Node `v`'s embedding is

    out v j = tanh (∑ₖ ((ns v k + x v k) / (deg v + 1)) · wt j k + bias j).

The mean can be taken in two ways: by the quotient `a / d`, or by the product `a · (1 / d)` with the reciprocal. On the
extended reals the two agree whenever `d ≠ 0` (both are `a · d⁻¹`); at `d = 0` they differ (`0 / 0` and `0 · (1 / 0)` are
not the same junk value), so the law needs `deg v + 1 ≠ 0`. An in-degree is a count — a sum of ones onto zero — hence
nonnegative, and `deg v + 1 ≥ 1 > 0`. Nothing else about `ns`, `x`, `wt` or `bias` is used: no finiteness.
-/

noncomputable section

open scoped BigOperators

namespace Cert.SageLayer

open Idealize.ShloMosaic Idealize.ShloMosaic.ValueIdx Idealize.ShloMosaic.RowOps

/-- The extended real that the single-precision word of `1.0` denotes. -/
abbrev oneW : EReal := Ideal.ofBits .f32 0x3F800000#32

/-- It is `1`. -/
theorem oneW_eq : oneW = 1 := by
  simp [oneW, Ideal.ofBits, Ideal.ieee, -EReal.coe_mul]; norm_num

theorem oneW_pos : 0 < oneW := by rw [oneW_eq]; exact zero_lt_one

/-- A quotient by a nonzero extended real is the product with the reciprocal: both are `a · d⁻¹`. -/
theorem div_eq_mul_recip {a d : EReal} (hd : d ≠ 0) : Ideal.div a d = a * Ideal.div oneW d := by
  unfold Ideal.div
  rw [if_neg hd, if_neg hd, oneW_eq, one_mul]

/-- A nonnegative degree plus one is not zero. -/
theorem succ_ne_zero {d : EReal} (h : 0 ≤ d) : d + oneW ≠ 0 :=
  ne_of_gt (oneW_pos.trans_le (le_add_of_nonneg_left h))

variable (ns x : (⟨2, ![50000, 128]⟩ : Shape).Idx → EReal) (deg : (⟨1, ![50000]⟩ : Shape).Idx → EReal)
  (wt : (⟨2, ![512, 128]⟩ : Shape).Idx → EReal) (bias : (⟨1, ![512]⟩ : Shape).Idx → EReal)

/-- Node `v`'s embedding, entry `j`, the mean taken by a quotient. -/
def nodeOut (v : Fin 50000) (j : Fin 512) : EReal :=
  Ideal.tanh ((∑ k : Fin 128, Ideal.div (ns (ix2 v k) + x (ix2 v k)) (deg (ix1 v) + oneW) * wt (ix2 j k)) + bias (ix1 j))

/-- The same entry, the mean taken by a product with the reciprocal of the degree plus one. -/
def nodeOutRecip (v : Fin 50000) (j : Fin 512) : EReal :=
  Ideal.tanh ((∑ k : Fin 128, ((ns (ix2 v k) + x (ix2 v k)) * Ideal.div oneW (deg (ix1 v) + oneW)) * wt (ix2 j k))
    + bias (ix1 j))

/-- For a node of nonnegative degree the two are one extended real. -/
theorem nodeOutRecip_eq (v : Fin 50000) (j : Fin 512) (h : 0 ≤ deg (ix1 v)) :
    nodeOutRecip ns x deg wt bias v j = nodeOut ns x deg wt bias v j := by
  unfold nodeOutRecip nodeOut
  congr 2
  refine Finset.sum_congr rfl fun k _ => ?_
  exact congrArg (· * wt (ix2 j k)) (div_eq_mul_recip (succ_ne_zero h)).symm

/-- A scatter-add of nonnegative updates into a nonnegative vector is nonnegative at every entry: the entry is the
    old one plus a sum of updates. -/
theorem vecScatterAdd_nonneg {φ : FTy} {n E w : Nat}
    (wf : ScatterDims.WF ⟨1, ![n]⟩ ⟨2, ![E, 1]⟩ ⟨1, ![E]⟩ [] [0] [0] 1)
    (a : FVec Ideal ⟨1, ![n]⟩ φ) (idx : IVec ⟨2, ![E, 1]⟩ w) (upd : FVec Ideal ⟨1, ![E]⟩ φ)
    (ha : ∀ i, 0 ≤ a i) (hu : ∀ i, 0 ≤ upd i) (r : Fin n) :
    0 ≤ Host.scatterAdd (F := Ideal) (vecScatterDims n E wf) a idx upd (ix1 r) := by
  rw [vecScatterAdd_host_apply]
  exact add_nonneg (ha _) (Finset.sum_nonneg fun e _ => hu _)

end Cert.SageLayer
-- ==== Proof.LibVecGather.lean ====
import Idealize.ShloMosaic.PureOps.Ideal
import Idealize.ShloMosaic.Lib.ValueIdx
import proofs.«155150_j69870527971698_2_alg».proof.Proof.LibRowOps

/-!
# A vector gathered by an integer column, read at an index

A vector `x : [n]` indexed by an integer column `idx : [E, 1]` (what `x[idx]` is for a table with one axis): the
result has shape `[E]`, and its entry `e` is `x r`, where `r` is the start index `idx (e, 0)` read as a signed
integer and clamped into `[0, n - 1]` — the same row that `RowOps.clampRow` names for a table that has columns, so a
vector and a table gathered by one index column read the same row. Stated for arbitrary extents and index width.
-/

noncomputable section

namespace Idealize.ShloMosaic.RowOps

open Idealize.ShloMosaic Idealize.ShloMosaic.ValueIdx

/-- The dimension numbers of the gather `x[idx]` for a vector `[n]`, start indices `[E, 1]` and result `[E]`: one
    slice `[1]` per start index, its one axis collapsed (the result has no offset axis); the index vector lies along
    axis 1 of the start indices and names the vector's axis. -/
abbrev vecGatherDims (n E : Nat)
    (wf : GatherDims.WF ⟨1, ![n]⟩ ⟨2, ![E, 1]⟩ ⟨1, ![E]⟩ [] [0] [] [0] [] 1 ![1]) :
    GatherDims ⟨1, ![n]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

variable {α : Type} {n E w : Nat}

/-- THE VECTOR GATHER READ AT `e`: the vector's entry `r`, where `r` is the start index `idx (e, 0)` read as a signed
    integer and clamped into `[0, n - 1]` (the slice has one element, so its start is clamped to the last entry; a
    negative start index reads entry `0`). -/
theorem vecGather_apply (hn : 0 < n)
    (wf : GatherDims.WF ⟨1, ![n]⟩ ⟨2, ![E, 1]⟩ ⟨1, ![E]⟩ [] [0] [] [0] [] 1 ![1])
    (x : (⟨1, ![n]⟩ : Shape).Idx → α) (idx : IVec ⟨2, ![E, 1]⟩ w) (e : Fin E) :
    Host.gather (vecGatherDims n E wf) x idx (ix1 e) = x (ix1 (clampRow n hn idx e)) := by
  unfold Host.gather
  congr 1
  funext a
  refine Fin.ext ?_
  match a with
  | ⟨0, _⟩ =>
    show (vecGatherDims n E wf).start (ix1 e) idx 0 + (vecGatherDims n E wf).batchCoord (ix1 e) 0
      + (vecGatherDims n E wf).offCoord (ix1 e) 0 = min (idx (ix2 e 0)).toInt.toNat (n - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims n E wf).startIndexMap from List.mem_singleton.mpr rfl)]
    have hsi : (vecGatherDims n E wf).siIdx (ix1 e) ⟨List.idxOf (0 : Fin 1) (vecGatherDims n E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Idealize.ShloMosaic.RowOps
-- ==== Proof.KernelValue.lean ====
import proofs.«155150_j69870527971698_2_alg».proof.Proof.KernelArray
import proofs.«155150_j69870527971698_2_alg».proof.Proof.Spec
import proofs.«155150_j69870527971698_2_alg».proof.Proof.LibRowOps
import proofs.«155150_j69870527971698_2_alg».proof.Proof.LibVecGather
import proofs.«155150_j69870527971698_2_alg».proof.Proof.LibColumnLayouts
import Idealize.ShloMosaic.Lib.ValueLayout

/-!
# The kernel's result, entry by entry, is the specification

Entry `(b, j)` of the kernel's result is `tanh (∑ₖ (num b k · inv b) · wt j k + biasRow j)`. With `r b` the node that
wanted index `b` names (wrapped, read signed, clamped into the table — the SAME row for the two table gathers and the
vector gather, all by one index column):

* `num b k = neighSum (r b) k + feat (r b) k` — two row gathers;
* `inv b = 1 / (degree (r b) + 1)` — a vector gather, an addition, a quotient, and the cast to a column;
* `biasRow j = bias j` — the cast to a row.

So the entry is the specification's `nodeOutRecip` at node `r b`. A degree is ones added onto zero, hence nonnegative,
so `degree (r b) + 1 ≠ 0` and the product with the reciprocal is the quotient: the entry is `nodeOut` at node `r b`.
-/

noncomputable section

open scoped BigOperators

namespace Cert.KernelIdeal.Bridge

open Cert.KernelIdeal Cert.KernelIdeal.Gen Cert.KernelIdeal.HostPrefix Cert.KernelIdeal.Blocks Idealize.ShloMosaic
  Idealize.ShloMosaic.ValueIdx Idealize.ShloMosaic.RowOps Idealize.ShloMosaic.ColumnLayouts Cert.SageLayer

variable (feat : FVec Ideal S50000x128 .f32) (wt : FVec Ideal S512x128 .f32) (bias : FVec Ideal S512 .f32)
  (src dst : IVec S550000 32) (ids : IVec S4096 32)

/-- The printed dimension numbers are the row gather's, the vector gather's and the vector scatter's. -/
theorem rowGather_dims : gather_S50000x128_S4096x1_S4096x128_1_0_n_n_0_1_1128
    = rowGatherDims 50000 128 4096 gather_S50000x128_S4096x1_S4096x128_1_0_n_n_0_1_1128_wf := rfl
theorem vecGather_dims : gather_S50000_S4096x1_S4096_n_0_n_n_0_1_1
    = vecGatherDims 50000 4096 gather_S50000_S4096x1_S4096_n_0_n_n_0_1_1_wf := rfl
theorem vecScatter_dims : scatter_S50000_S550000x1_S550000_n_0_0_1
    = vecScatterDims 50000 550000 scatter_S50000_S550000x1_S550000_n_0_0_1_wf := rfl

/-- The node that wanted index `b` names. -/
abbrev node (b : Fin 4096) : Fin 50000 := clampRow 50000 (by decide) (wrapCol ids) b

/-- The numerator at `(b, k)`: the neighbour sum plus the feature of the named node. -/
theorem numer_apply (b : Fin 4096) (k : Fin 128) :
    numer feat src dst ids (ix2 b k)
      = neighSum feat src dst (ix2 (node ids b) k) + feat (ix2 (node ids b) k) := by
  unfold numer
  rw [rowGather_dims]
  show Host.gather _ (neighSum feat src dst) (wrapCol ids) (ix2 b k) + Host.gather _ feat (wrapCol ids) (ix2 b k) = _
  rw [rowGather_apply (by decide : 0 < 50000), rowGather_apply (by decide : 0 < 50000)]

/-- The splat of the word of `1.0` reads `1.0` everywhere. -/
theorem ones_apply (i : S4096.Idx) :
    broadcastInDim S4096 ![] bcast_S_S4096 (constant (F := Ideal) S_ .f32 0x3F800000#32) i = oneW :=
  broadcastInDim_apply _ bcast_S_S4096 (constant (F := Ideal) S_ .f32 0x3F800000#32) i (fun a => a.elim0)
    (fun a => a.elim0)

/-- The reciprocal column at `b`: one over the named node's degree plus one. -/
theorem recipCol_apply (b : Fin 4096) :
    recipCol dst ids (ix2 b (0 : Fin 1)) = Ideal.div oneW (degree dst (ix1 (node ids b)) + oneW) := by
  unfold recipCol
  refine (shapeCast_a_a1_apply _ shapeCasts_S4096_S4096x1 b (0 : Fin 1)).trans ?_
  rw [vecGather_dims]
  have hg := vecGather_apply (by decide : 0 < 50000) gather_S50000_S4096x1_S4096_n_0_n_n_0_1_1_wf (degree dst)
    (wrapCol ids) b
  -- the gathered degrees as an opaque vector: only its entry at `b` is used
  generalize Host.gather (vecGatherDims 50000 4096 gather_S50000_S4096x1_S4096_n_0_n_n_0_1_1_wf) (degree dst)
    (wrapCol ids) = gd at hg ⊢
  show Ideal.div (broadcastInDim S4096 ![] bcast_S_S4096 (constant (F := Ideal) S_ .f32 0x3F800000#32) (ix1 b))
    (gd (ix1 b) + broadcastInDim S4096 ![] bcast_S_S4096 (constant (F := Ideal) S_ .f32 0x3F800000#32) (ix1 b)) = _
  rw [ones_apply, hg]

/-- The bias row at `j` is the bias at `j`. -/
theorem biasRow_apply (j : Fin 512) : biasRow bias (ix2 (0 : Fin 1) j) = bias (ix1 j) := by
  unfold biasRow
  exact shapeCast_a_1a_apply bias shapeCasts_S512_S1x512 (0 : Fin 1) j

/-- A degree is a sum of ones onto zero: nonnegative. -/
theorem degree_nonneg (v : Fin 50000) : 0 ≤ degree dst (ix1 v) := by
  unfold degree
  rw [vecScatter_dims]
  refine vecScatterAdd_nonneg _ _ _ _ (fun i => ?_) (fun i => ?_) v
  · show (0 : EReal) ≤ Ideal.ofBits .f32 0x00000000#32
    rw [Ideal.ofBits_zero_f32]
  · show (0 : EReal) ≤ oneW
    exact oneW_pos.le

/-- THE KERNEL'S RESULT AT `(b, j)`: the specification at the node that wanted index `b` names. -/
theorem gridOut_apply (b : Fin 4096) (j : Fin 512) :
    gridOut (numer feat src dst ids) (recipCol dst ids) wt (biasRow bias) (ix2 b j)
      = nodeOut (neighSum feat src dst) feat (degree dst) wt bias (node ids b) j := by
  show gridAt (numer feat src dst ids) (recipCol dst ids) wt (biasRow bias) b j = _
  rw [← nodeOutRecip_eq (neighSum feat src dst) feat (degree dst) wt bias (node ids b) j (degree_nonneg dst _)]
  unfold gridAt nodeOutRecip
  rw [recipCol_apply, biasRow_apply]
  refine congrArg (fun s => Ideal.tanh (s + bias (ix1 j))) (Finset.sum_congr rfl fun k _ => ?_)
  rw [numer_apply]

end Cert.KernelIdeal.Bridge
-- ==== Proof.RefValue.lean ====
import proofs.«155150_j69870527971698_2_alg».proof.Proof.Gen.ReferenceIdeal.Read
import proofs.«155150_j69870527971698_2_alg».proof.Proof.Spec
import proofs.«155150_j69870527971698_2_alg».proof.Proof.LibRowOps

/-!
# The reference, entry by entry

The reference computes every node's embedding — the neighbour sums plus the features, divided row by row by the degree
plus one, contracted against the weights, plus the bias, through `tanh` — and only then picks the wanted nodes' rows.
Entry `(b, j)` of its result is therefore the specification's `nodeOut` at node `r b`, where `r b` is the wanted index
`b` (negative ones wrapped) read signed and clamped into the table.
-/

noncomputable section

open scoped BigOperators

namespace Cert.ReferenceIdeal.RefValue

open Cert.ReferenceIdeal Cert.ReferenceIdeal.Gen Cert.ReferenceIdeal.Read Idealize.ShloMosaic
  Idealize.ShloMosaic.ValueIdx Idealize.ShloMosaic.RowOps Cert.SageLayer

/-- The final row gather's dimension numbers are the row gather's. -/
theorem gather_dims : gather_S50000x512_S4096x1_S4096x512_1_0_n_n_0_1_1512
    = rowGatherDims 50000 512 4096 gather_S50000x512_S4096x1_S4096x512_1_0_n_n_0_1_1512_wf := rfl

/-- Node `v`'s embedding in the reference, entry `j`, is the specification's. -/
theorem embed_apply (x0 : FVec Ideal S50000x128 .f32) (x1 : FVec Ideal S512x128 .f32) (x2 : FVec Ideal S512 .f32)
    (x3 x4 : IVec S550000 32) (v : Fin 50000) (j : Fin 512) :
    val_main_v25 (F := Ideal) x0 x1 x2 x3 x4 (ix2 v j)
      = nodeOut (val_main_v9 (F := Ideal) x0 x3 x4) x0 (val_main_v13 (F := Ideal) x4) x1 x2 v j := by
  rw [val_main_v25_apply, val_main_v24_apply, val_main_v21_apply, val_main_v23_apply, val_main_v22_apply]
  unfold nodeOut
  simp only [Ideal.hostUnary_tanh_def, Ideal.addf_def]
  have hb : idx_main_v22 (idx_main_v23 (ix2 v j)) = ix1 j :=
    funext fun a => Fin.ext (by match a with | ⟨0, _⟩ => rfl)
  rw [hb]
  refine congrArg (fun s => Ideal.tanh (s + x2 (ix1 j))) (Finset.sum_congr rfl fun k _ => ?_)
  have hl : lidx_main_v21 (ix2 v j) k = ix2 v k :=
    funext fun a => Fin.ext (by match a with | ⟨0, _⟩ => rfl | ⟨1, _⟩ => rfl)
  have hr : ridx_main_v21 (ix2 v j) k = ix2 k j :=
    funext fun a => Fin.ext (by match a with | ⟨0, _⟩ => rfl | ⟨1, _⟩ => rfl)
  rw [hl, hr, val_main_v19_apply, val_main_v14_apply, val_main_v18_apply, val_main_v17_apply, val_main_v15_apply,
    val_main_v16_apply, val_main_cst_3_apply, val_main_v20_apply]
  have hd : idx_main_v15 (idx_main_v18 (ix2 v k)) = ix1 v :=
    funext fun a => Fin.ext (by match a with | ⟨0, _⟩ => rfl)
  have hw : idx_main_v20 (ix2 k j) = ix2 j k :=
    funext fun a => Fin.ext (by match a with | ⟨0, _⟩ => rfl | ⟨1, _⟩ => rfl)
  rw [hd, hw]
  rfl

/-- THE REFERENCE'S RESULT AT `(b, j)`: the specification at the node that wanted index `b` names. -/
theorem result_apply (x0 : FVec Ideal S50000x128 .f32) (x1 : FVec Ideal S512x128 .f32) (x2 : FVec Ideal S512 .f32)
    (x3 x4 : IVec S550000 32) (x5 : IVec S4096 32) (b : Fin 4096) (j : Fin 512) :
    val_main_v32 (F := Ideal) x0 x1 x2 x3 x4 x5 (ix2 b j)
      = nodeOut (val_main_v9 (F := Ideal) x0 x3 x4) x0 (val_main_v13 (F := Ideal) x4) x1 x2
          (clampRow 50000 (by decide) (val_main_v31 (F := Ideal) x5) b) j := by
  unfold val_main_v32
  rw [gather_dims, rowGather_apply (by decide : 0 < 50000)]
  exact embed_apply x0 x1 x2 x3 x4 _ j

end Cert.ReferenceIdeal.RefValue
-- ==== Proof.lean ====
/-
  One mean-aggregating graph layer (neighbour sums and in-degrees by scatter-add, the mean, a linear map, a bias, `tanh`)
  evaluated at 4096 wanted nodes out of 50000, two ways.

  The reference computes every node's embedding

      out v j = tanh (∑ₖ ((neighSum v k + feat v k) / (deg v + 1)) · W j k + bias j)

  and then picks the wanted nodes' rows. The kernel picks the wanted nodes' rows of `neighSum`, `feat` and `deg` first,
  forms the numerator `neighSum + feat` and the reciprocal `1 / (deg + 1)` on the host, and in a grid of two points of
  2048 rows each computes `tanh (∑ₖ (num b k · inv b) · W j k + bias j)`.

  On the extended reals the two agree entry by entry:
  * picking rows commutes with everything done row by row, and all three row picks (two tables, one vector) and the
    reference's final pick use ONE index column, so they name the same node `r b` — the wanted index, a negative one
    wrapped, read signed and clamped into the table;
  * the changes of float format in front of the kernel's contraction are the identity, the contraction onto a zero
    accumulator and the host's product are the same sum over the 128 features;
  * `a / d = a · (1 / d)` whenever `d ≠ 0`, and `d = deg (r b) + 1 ≥ 1` because a degree is ones added onto zero.
  Finiteness of the inputs is not needed: the neighbour sums, features, weights and bias enter both sides as the same
  extended reals in the same places. The neighbour sums, the degrees and the index column are the same host terms in
  both programs and are never opened, except the degree for its sign.

  The frames of the two kernel programs are the generated frame certificates; the reference's frame is its generated run
  with the result dropped. The idealization rewrote nothing, so `preserves` is `True`.
-/
import proofs.«155150_j69870527971698_2_alg».proof.Defs
import proofs.«155150_j69870527971698_2_alg».proof.Proof.Gen.Kernel
import proofs.«155150_j69870527971698_2_alg».proof.Proof.Gen.Kernel.Skeleton
import proofs.«155150_j69870527971698_2_alg».proof.Proof.Gen.Kernel.Launch
import proofs.«155150_j69870527971698_2_alg».proof.Proof.Gen.Kernel.Points
import proofs.«155150_j69870527971698_2_alg».proof.Proof.Gen.Kernel.Frame
import proofs.«155150_j69870527971698_2_alg».proof.Proof.Gen.KernelIdeal
import proofs.«155150_j69870527971698_2_alg».proof.Proof.Gen.KernelIdeal.Skeleton
import proofs.«155150_j69870527971698_2_alg».proof.Proof.Gen.KernelIdeal.Launch
import proofs.«155150_j69870527971698_2_alg».proof.Proof.Gen.KernelIdeal.Points
import proofs.«155150_j69870527971698_2_alg».proof.Proof.Gen.KernelIdeal.Frame
import proofs.«155150_j69870527971698_2_alg».proof.Proof.Gen.ReferenceIdeal
import proofs.«155150_j69870527971698_2_alg».proof.Proof.Gen.Pre_finite_inputs
import proofs.«155150_j69870527971698_2_alg».proof.Proof.Gen.KernelIdeal.Value
import proofs.«155150_j69870527971698_2_alg».proof.Proof.Gen.ReferenceIdeal.Run
import proofs.«155150_j69870527971698_2_alg».proof.Proof.Gen.ReferenceIdeal.Read
import proofs.«155150_j69870527971698_2_alg».proof.Proof.KernelValue
import proofs.«155150_j69870527971698_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-! ## The shared host terms are the same functions in both programs -/

theorem neighSum_eq : Cert.KernelIdeal.HostPrefix.neighSum = Cert.ReferenceIdeal.Read.val_main_v9 (F := Ideal) := rfl
theorem degree_eq : Cert.KernelIdeal.HostPrefix.degree = Cert.ReferenceIdeal.Read.val_main_v13 (F := Ideal) := rfl
theorem wrapCol_eq : Cert.KernelIdeal.HostPrefix.wrapCol = Cert.ReferenceIdeal.Read.val_main_v31 (F := Ideal) := rfl

/-- THE TWO RESULTS ARE ONE ARRAY: entry `(b, j)` of either is the specification's embedding of the node that wanted
    index `b` names. -/
theorem result_eq (x0 : FVec Ideal Cert.KernelIdeal.S50000x128 .f32) (x1 : FVec Ideal Cert.KernelIdeal.S512x128 .f32)
    (x2 : FVec Ideal Cert.KernelIdeal.S512 .f32) (x3 x4 : IVec Cert.KernelIdeal.S550000 32)
    (x5 : IVec Cert.KernelIdeal.S4096 32) :
    Cert.ReferenceIdeal.Read.val_main_v32 (F := Ideal) x0 x1 x2 x3 x4 x5
      = Cert.KernelIdeal.Blocks.gridOut (Cert.KernelIdeal.HostPrefix.numer x0 x3 x4 x5)
          (Cert.KernelIdeal.HostPrefix.recipCol x4 x5) x1 (Cert.KernelIdeal.HostPrefix.biasRow x2) := by
  funext i
  obtain ⟨b, j, rfl⟩ : ∃ (b : Fin 4096) (j : Fin 512), i = ix2 b j := ⟨i 0, i 1, eq_ix2 i⟩
  rw [Cert.ReferenceIdeal.RefValue.result_apply, Cert.KernelIdeal.Bridge.gridOut_apply]
  unfold Cert.KernelIdeal.Bridge.node
  rw [neighSum_eq, degree_eq, wrapCol_eq]

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at `gridOut` of the arguments (the grid's blocks assembled), the reference's at its
    composed host term of arguments that agree: one array (`result_eq`). -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2.1, (hagree c).2.2.1, (hagree c).2.2.2.1,
    (hagree c).2.2.2.2.1, (hagree c).2.2.2.2.2]
  exact result_eq _ _ _ _ _ _

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
